-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S8x2048x8192 : Shape := ⟨3, ![8, 2048, 8192]⟩
abbrev S8x8192 : Shape := ⟨2, ![8, 8192]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192 : S_.BroadcastsInDim S8x8192 (![] : Fin 0 → Fin S8x8192.rank)
  reducesTo_S8x8192_S_d0_1 : S8x8192.ReducesTo [0, 1] S_

variable [Facts]

def fn {F : FTy → Type} [FloatOps F] (main_arg0 : FVec F S8x4096x2048 .f32) (main_arg1 : FVec F S8x2048x8192 .f32) (main_arg2 : FVec F S8x8192 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  main_v13
-- ==== Kernel.lean ====
abbrev S8x4096x2048 : Shape := ⟨3, ![8, 4096, 2048]⟩
abbrev S8x2048x8192 : Shape := ⟨3, ![8, 2048, 8192]⟩
abbrev S8x8192 : Shape := ⟨2, ![8, 8192]⟩
abbrev S8x1x8192 : Shape := ⟨3, ![8, 1, 8192]⟩
abbrev S8x4096x8192 : Shape := ⟨3, ![8, 4096, 8192]⟩
abbrev S1x512x2048 : Shape := ⟨3, ![1, 512, 2048]⟩
abbrev S1x2048x512 : Shape := ⟨3, ![1, 2048, 512]⟩
abbrev S1x1x512 : Shape := ⟨3, ![1, 1, 512]⟩
abbrev S1x512x512 : Shape := ⟨3, ![1, 512, 512]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S8x2048x8192, .f32⟩
  | .hbm, ⟨2, _⟩ => ⟨S8x8192, .f32⟩
  | .hbm, ⟨3, _⟩ => ⟨S8x1x8192, .f32⟩
  | .hbm, ⟨4, _⟩ => ⟨S8x4096x8192, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S1x512x512, .f32⟩
  | .local _ .vmem, ⟨7, _⟩ => ⟨S1x512x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S8x8192_S8x1x8192 : S8x8192.ShapeCasts S8x1x8192
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .f32 = 32 ∨ (Rect.block (s := S8x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x8192.size a
  hwx0_2 : ∀ i : grid0.Coords, EltTy.bits .f32 = 32 ∨ (Rect.block (s := S8x1x8192) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x4096x8192.size a
  hwx0_3 : ∀ i : grid0.Coords, EltTy.bits .f32 = 32 ∨ (Rect.block (s := S8x4096x8192) S1x512x512.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S8x2048x8192 : Shape := ⟨3, ![8, 2048, 8192]⟩
abbrev S8x8192 : Shape := ⟨2, ![8, 8192]⟩
abbrev S8x4096x8192 : Shape := ⟨3, ![8, 4096, 8192]⟩
abbrev S8x1x8192 : Shape := ⟨3, ![8, 1, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048x8192, .f32⟩
  | .hbm, ⟨2, _⟩ => ⟨S8x8192, .f32⟩
  | .hbm, ⟨3, _⟩ => ⟨S8x4096x8192, .f32⟩
  | .hbm, ⟨4, _⟩ => ⟨S8x1x8192, .f32⟩
  | .hbm, ⟨5, _⟩ => ⟨S8x4096x8192, .f32⟩
  | .hbm, ⟨6, _⟩ => ⟨S8x4096x8192, .f32⟩
  | .hbm, ⟨7, _⟩ => ⟨S8x4096x8192, .f32⟩
  | .hbm, ⟨8, _⟩ => ⟨S8x4096x8192, .f32⟩
  | .hbm, ⟨9, _⟩ => ⟨S_, .f32⟩
  | .hbm, ⟨10, _⟩ => ⟨S8x4096x8192, .f32⟩
  | .hbm, ⟨11, _⟩ => ⟨S8x4096x8192, .f32⟩
  | .hbm, ⟨12, _⟩ => ⟨S_, .f32⟩
  | .hbm, ⟨13, _⟩ => ⟨S8x4096x8192, .f32⟩
  | .hbm, ⟨14, _⟩ => ⟨S8x4096x8192, .f32⟩
  | .hbm, ⟨15, _⟩ => ⟨S8x4096x8192, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩

abbrev nD : Nat := 1
abbrev τ : Topo := Topo.v7x

variable {F : FTy → Type} [FloatOps F]

class Facts₀ : Prop where
  bcast_S8x8192_S8x1x8192_0_2 : S8x8192.BroadcastsInDim S8x1x8192 (![0, 2] : Fin 2 → Fin S8x1x8192.rank)
  bcast_S8x1x8192_S8x4096x8192_0_1_2 : S8x1x8192.BroadcastsInDim S8x4096x8192 (![0, 1, 2] : Fin 3 → Fin S8x4096x8192.rank)
  bcast_S_S8x4096x8192 : S_.BroadcastsInDim S8x4096x8192 (![] : Fin 0 → Fin S8x4096x8192.rank)
  dot_S8x4096x2048_S8x2048x8192_S8x4096x8192_2_1_1_2_0_0_wf : DotDims.WF S8x4096x2048 S8x2048x8192 S8x4096x8192 [2] [1] [1] [2] [0] [0]

variable [Facts₀]

def dot_S8x4096x2048_S8x2048x8192_S8x4096x8192_2_1_1_2_0_0 : DotDims S8x4096x2048 S8x2048x8192 S8x4096x8192 where
  lhsContracting := [2]
  rhsContracting := [1]
  lhsNonContracting := [1]
  rhsNonContracting := [2]
  lhsBatch := [0]
  rhsBatch := [0]
  wf := dot_S8x4096x2048_S8x2048x8192_S8x4096x8192_2_1_1_2_0_0_wf

class Facts : Prop extends Facts₀ where

variable [Facts]
-- ==== Proof.GemmSilu.lean ====
/-
  The function both programs compute, stated once over the extended reals and over the literal shapes.

  For each expert `e`, row `r` and column `n` the pre-activation is the inner product of row `r` of `x[e]` with
  column `n` of `w[e]`, taken over the whole contraction axis of length 2048, plus the bias `b[e, n]`; the result is
  SiLU of it, `v · 1 / (1 + e^(-v))`. Nothing here needs the entries to be finite: the two programs will be shown to be
  this same expression, not merely equal to it on finite inputs.
-/
import Idealize.ShloMosaic.PureOps.Ideal
import Idealize.ShloMosaic.Lib.ValueIdx
import Idealize.ShloMosaic.Lib.IdealHost

noncomputable section

open scoped BigOperators

namespace Cert.GemmSilu

open Idealize.ShloMosaic Idealize.ShloMosaic.ValueIdx

/-- SiLU on the extended reals: `v · σ(v)` with `σ(v) = 1 / (1 + e^(-v))`. -/
def silu (v : EReal) : EReal := v * Ideal.logistic v

/-- The pre-activation at expert `e`, row `r`, column `n`: `∑ₖ x[e, r, k] · w[e, k, n] + b[e, n]`. -/
def preact (x : (⟨3, ![8, 4096, 2048]⟩ : Shape).Idx → EReal) (w : (⟨3, ![8, 2048, 8192]⟩ : Shape).Idx → EReal)
    (b : (⟨2, ![8, 8192]⟩ : Shape).Idx → EReal) (e : Fin 8) (r : Fin 4096) (n : Fin 8192) : EReal :=
  (∑ k : Fin 2048, x (ix3 e r k) * w (ix3 e k n)) + b (ix2 e n)

/-- The whole result array: SiLU of the pre-activation, entry by entry. -/
def result (x : (⟨3, ![8, 4096, 2048]⟩ : Shape).Idx → EReal) (w : (⟨3, ![8, 2048, 8192]⟩ : Shape).Idx → EReal)
    (b : (⟨2, ![8, 8192]⟩ : Shape).Idx → EReal) : (⟨3, ![8, 4096, 8192]⟩ : Shape).Idx → EReal :=
  fun i => silu (preact x w b (i 0) (i 1) (i 2))

/-- The host's spelling of the logistic function — `1 / (1 + exp (-v))` with the host's division, exponential and
    negation — is the logistic function: on the extended reals the host's operations are the same functions. -/
theorem host_logistic (v : EReal) :
    FloatOps.hostDivf (F := Ideal) (φ := .f32) 1 (FloatOps.addf (F := Ideal) (φ := .f32) 1
      (FloatOps.hostUnary (F := Ideal) (φ := .f32) .exp (FloatOps.hostNegf (F := Ideal) (φ := .f32) v))) = Ideal.logistic v := rfl

end Cert.GemmSilu

end
-- ==== Proof.RefGemmSilu.lean ====
/-
  The reference computes `GemmSilu.result`.

  Its program is a batched `dot_general` (batch axis the expert, one contracted axis of length 2048), the bias
  broadcast along the rows, their sum, and SiLU spelt out as `v · (1 / (1 + exp (-v)))`. Read at an index `(e, r, n)`:
  the `dot_general` is `∑ₖ x[e, r, k] · w[e, k, n]`, the two broadcasts read `b[e, n]`, the constant is the number
  one, and the host's quotient, exponential and negation are the extended reals' own, so the spelt-out factor is the
  logistic function.
-/
import proofs.«141067_j14851996909966_2_alg».proof.Proof.Gen.ReferenceIdeal.Read
import proofs.«141067_j14851996909966_2_alg».proof.Proof.GemmSilu

noncomputable section

open scoped BigOperators

namespace Cert.ReferenceIdeal.IsGemmSilu

open Cert.ReferenceIdeal Cert.ReferenceIdeal.Gen Cert.ReferenceIdeal.Read Cert.GemmSilu
open Idealize.ShloMosaic Idealize.ShloMosaic.ValueIdx

/-- The left operand's index at output `(e, r, n)` and contraction position `k` is `(e, r, k)`. -/
theorem lidx_eq (i : S8x4096x8192.Idx) (k : Fin 2048) : lidx_main_v0 i k = ix3 (i 0) (i 1) k :=
  funext fun a => Fin.ext (by match a with | ⟨0, _⟩ => rfl | ⟨1, _⟩ => rfl | ⟨2, _⟩ => rfl)

/-- The right operand's is `(e, k, n)`. -/
theorem ridx_eq (i : S8x4096x8192.Idx) (k : Fin 2048) : ridx_main_v0 i k = ix3 (i 0) k (i 2) :=
  funext fun a => Fin.ext (by match a with | ⟨0, _⟩ => rfl | ⟨1, _⟩ => rfl | ⟨2, _⟩ => rfl)

/-- Through the two broadcasts the bias is read at `(e, n)`. -/
theorem bias_idx_eq (i : S8x4096x8192.Idx) : idx_main_v1 (idx_main_v2 i) = ix2 (i 0) (i 2) :=
  funext fun a => Fin.ext (by match a with | ⟨0, _⟩ => rfl | ⟨1, _⟩ => rfl)

/-- The reference's last stage is the specification, entry by entry. -/
theorem stage_eq (x : (⟨S8x4096x2048, .f32⟩ : BufTy).Contents (Elt Ideal)) (w : (⟨S8x2048x8192, .f32⟩ : BufTy).Contents (Elt Ideal))
    (b : (⟨S8x8192, .f32⟩ : BufTy).Contents (Elt Ideal)) :
    val_main_v4 (F := Ideal) x w b = result x w b := by
  funext i
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, val_main_v3_apply, val_main_v0_apply, val_main_v2_apply, val_main_v1_apply]
  simp only [lidx_eq, ridx_eq, bias_idx_eq]
  show _ * FloatOps.hostDivf (F := Ideal) (φ := .f32) (Ideal.ofBits .f32 0x3F800000#32)
    (FloatOps.addf (F := Ideal) (φ := .f32) (Ideal.ofBits .f32 0x3F800000#32) _) = _
  rw [Ideal.ofBits_one_f32]
  rfl

end Cert.ReferenceIdeal.IsGemmSilu

end
-- ==== Proof.GridPoints.lean ====
/-
  The grid, point by point.

  The grid is `8 × 8 × 16` — expert, row tile, column tile — walked in row-major order, so point `t` is expert
  `t / 128`, row tile `t / 16 mod 8`, column tile `t mod 16`. The output's block index at `t` is that triple; the `x`
  tile follows the expert and the row tile and always takes the whole contraction axis (block index 0 there), the `w`
  tile and the bias tile follow the expert and the column tile. These are finitely many equations between the printed
  index maps and are decided over the 1024 points.
-/
import proofs.«141067_j14851996909966_2_alg».proof.Proof.Gen.KernelIdeal.Launch

noncomputable section

namespace Cert.KernelIdeal.Grid

open Cert.KernelIdeal Cert.KernelIdeal.Gen Idealize.ShloMosaic

/-- There are 1024 points. -/
theorem lt_N (t : Fin cfg0.N) : t.val < 1024 := lt_of_lt_of_eq t.isLt N_0

/-- Every window's block index at every point, in terms of the point's position. -/
theorem idx_facts : ∀ t : Fin cfg0.N,
    win0_3.index t (0 : Fin 3) = t.val / 128 ∧ win0_3.index t (1 : Fin 3) = t.val / 16 % 8 ∧ win0_3.index t (2 : Fin 3) = t.val % 16
    ∧ win0_0.index t (0 : Fin 3) = t.val / 128 ∧ win0_0.index t (1 : Fin 3) = t.val / 16 % 8 ∧ win0_0.index t (2 : Fin 3) = 0
    ∧ win0_1.index t (0 : Fin 3) = t.val / 128 ∧ win0_1.index t (1 : Fin 3) = 0 ∧ win0_1.index t (2 : Fin 3) = t.val % 16
    ∧ win0_2.index t (0 : Fin 3) = t.val / 128 ∧ win0_2.index t (1 : Fin 3) = 0 ∧ win0_2.index t (2 : Fin 3) = t.val % 16 :=
  (by decide +kernel : ∀ t : Fin grid0.N, _)

end Cert.KernelIdeal.Grid

end
-- ==== Proof.TileReads.lean ====
/-
  What the body is handed at a grid point.

  At point `t` — expert `e = t / 128`, row tile `M = t / 16 mod 8`, column tile `N = t mod 16` — the three input
  windows hold: rows `512·M … 512·M + 511` of `x[e]` over the whole contraction axis; columns `512·N … 512·N + 511` of
  `w[e]` over the whole contraction axis; and entries `512·N … 512·N + 511` of the bias row `b[e]`. The bias window's
  array is not the argument itself but its copy with a unit axis inserted, `[8, 8192] → [8, 1, 8192]`, made before
  the region; entry `(e, 0, n)` of the copy is `b[e, n]` (same row-major position).
-/
import proofs.«141067_j14851996909966_2_alg».proof.Proof.Gen.KernelIdeal.Frame
import proofs.«141067_j14851996909966_2_alg».proof.Proof.GridPoints
import Idealize.ShloMosaic.Lib.Pipeline.Value
import Idealize.ShloMosaic.Lib.ValueIdx
import Idealize.ShloMosaic.Lib.StableHlo.Run

noncomputable section

namespace Cert.KernelIdeal.Reads

open Cert.KernelIdeal Cert.KernelIdeal.Gen Cert.KernelIdeal.Grid
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The bias as the region finds it: the argument with a unit axis inserted. -/
theorem V_bias (c : Dev nD) :
    (V m c main_v0 : S8x1x8192.Idx → EReal)
      = shapeCast S8x1x8192 (m ((c : Thread nD τ).loc main_arg2) : S8x8192.Idx → EReal) shapeCasts_S8x8192_S8x1x8192 := by
  dsimp only [V, hostOps0]
  after_results
  rfl

/-- Entry `(e, 0, n)` of the bias with the unit axis is entry `(e, n)` of the bias. -/
theorem bias3_apply (b : S8x8192.Idx → EReal) (e : Fin 8) (n : Fin 8192) :
    shapeCast S8x1x8192 b shapeCasts_S8x8192_S8x1x8192 (ix3 e 0 n) = b (ix2 e n) := by
  refine shapeCast_apply b _ (ix3 e 0 n) (ix2 e n) ?_
  rw [Shape.rowMajor_val_three, Shape.rowMajor_val_two]
  show e.val * 8192 + n.val = (e.val * 1 + 0) * 8192 + n.val
  omega

/-- The `x` window at point `t`: entry `(0, p, k)` is `x[e, 512·M + p, k]`. -/
theorem xtile_apply (c : Dev nD) (t : Fin cfg0.N) (p : Fin 512) (k : Fin 2048) :
    (iblk m c 0 t : Vec Ideal S1x512x2048 .f32) (ix3 0 p k)
      = (m ((c : Thread nD τ).loc main_arg0) : S8x4096x2048.Idx → EReal)
          (ix3 ⟨t.val / 128, by have := lt_N t; omega⟩ ⟨t.val / 16 % 8 * 512 + p.val, by have := p.isLt; omega⟩ k) := by
  obtain ⟨-, -, -, a0, a1, a2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * (0 : Nat) = t.val / 128; omega
  | ⟨1, _⟩ => show win0_0.index t (1 : Fin 3) * 512 + 1 * p.val = t.val / 16 % 8 * 512 + p.val; omega
  | ⟨2, _⟩ => show win0_0.index t (2 : Fin 3) * 2048 + 1 * k.val = k.val; omega

/-- The `w` window at point `t`: entry `(0, k, q)` is `w[e, k, 512·N + q]`. -/
theorem wtile_apply (c : Dev nD) (t : Fin cfg0.N) (k : Fin 2048) (q : Fin 512) :
    (iblk m c 1 t : Vec Ideal S1x2048x512 .f32) (ix3 0 k q)
      = (m ((c : Thread nD τ).loc main_arg1) : S8x2048x8192.Idx → EReal)
          (ix3 ⟨t.val / 128, by have := lt_N t; omega⟩ k ⟨t.val % 16 * 512 + q.val, by have := q.isLt; omega⟩) := by
  obtain ⟨-, -, -, -, -, -, a0, a1, a2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * (0 : Nat) = t.val / 128; omega
  | ⟨1, _⟩ => show win0_1.index t (1 : Fin 3) * 2048 + 1 * k.val = k.val; omega
  | ⟨2, _⟩ => show win0_1.index t (2 : Fin 3) * 512 + 1 * q.val = t.val % 16 * 512 + q.val; omega

/-- The bias window at point `t`: entry `(0, 0, q)` is `b[e, 512·N + q]`. -/
theorem btile_apply (c : Dev nD) (t : Fin cfg0.N) (q : Fin 512) :
    (iblk m c 2 t : Vec Ideal S1x1x512 .f32) (ix3 0 0 q)
      = (m ((c : Thread nD τ).loc main_arg2) : S8x8192.Idx → EReal)
          (ix2 ⟨t.val / 128, by have := lt_N t; omega⟩ ⟨t.val % 16 * 512 + q.val, by have := q.isLt; omega⟩) := by
  obtain ⟨-, -, -, -, -, -, -, -, -, a0, a1, a2⟩ := idx_facts t
  unfold iblk
  rw [View.read_apply]
  show V m c main_v0 _ = _
  rw [V_bias]
  refine Eq.trans
    (congrArg (shapeCast S8x1x8192 (m ((c : Thread nD τ).loc main_arg2) : S8x8192.Idx → EReal) shapeCasts_S8x8192_S8x1x8192)
      (funext fun a => Fin.ext ?_))
    (bias3_apply (m ((c : Thread nD τ).loc main_arg2)) ⟨t.val / 128, by have := lt_N t; omega⟩
      ⟨t.val % 16 * 512 + q.val, by have := q.isLt; omega⟩)
  match a with
  | ⟨0, _⟩ => show win0_2.index t (0 : Fin 3) * 1 + 1 * (0 : Nat) = t.val / 128; omega
  | ⟨1, _⟩ => show win0_2.index t (1 : Fin 3) * 1 + 1 * (0 : Nat) = 0; omega
  | ⟨2, _⟩ => show win0_2.index t (2 : Fin 3) * 512 + 1 * q.val = t.val % 16 * 512 + q.val; omega

end Cert.KernelIdeal.Reads

end
-- ==== Proof.TileGemmSilu.lean ====
/-
  One grid point's tile, entry by entry.

  At a grid point the body holds a `[1, 512, 2048]` tile of `x`, a `[1, 2048, 512]` tile of `w` and a `[1, 1, 512]`
  tile of the bias, and stores ONE `[1, 512, 512]` value. Read at `(0, p, q)` that value is SiLU of
  `∑ₖ xtile[0, p, k] · wtile[0, k, q] + btile[0, 0, q]`: the leading unit axes are dropped and put back by shape casts
  (same row-major position), the narrowing to bf16 is the identity on extended reals, the matrix product into a zero
  accumulator is the plain sum over the one contracted axis of length 2048, the bias row is repeated down the 512 rows,
  and the logistic operation is the logistic function.
-/
import proofs.«141067_j14851996909966_2_alg».proof.Proof.Gen.KernelIdeal.Skeleton
import proofs.«141067_j14851996909966_2_alg».proof.Proof.GemmSilu
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Cert.GemmSilu
open Idealize.ShloMosaic Idealize.ShloMosaic.ValueIdx

/-- The `x` tile seen as a `[512, 2048]` matrix: entry `(p, k)` is the tile's `(0, p, k)`. -/
theorem lhs_tile_apply (x0 : Vec Ideal S1x512x2048 .f32) (p : Fin 512) (k : Fin 2048) :
    shapeCast S512x2048 x0 shapeCasts_S1x512x2048_S512x2048 (ix2 p k) = x0 (ix3 0 p k) := by
  refine shapeCast_apply x0 _ (ix2 p k) (ix3 0 p k) ?_
  rw [Shape.rowMajor_val_three, Shape.rowMajor_val_two]
  show ((0 : Nat) * 512 + p.val) * 2048 + k.val = p.val * 2048 + k.val
  omega

/-- The `w` tile seen as a `[2048, 512]` matrix: entry `(k, q)` is the tile's `(0, k, q)`. -/
theorem rhs_tile_apply (x1 : Vec Ideal S1x2048x512 .f32) (k : Fin 2048) (q : Fin 512) :
    shapeCast S2048x512 x1 shapeCasts_S1x2048x512_S2048x512 (ix2 k q) = x1 (ix3 0 k q) := by
  refine shapeCast_apply x1 _ (ix2 k q) (ix3 0 k q) ?_
  rw [Shape.rowMajor_val_three, Shape.rowMajor_val_two]
  show ((0 : Nat) * 2048 + k.val) * 512 + q.val = k.val * 512 + q.val
  omega

/-- The bias tile as a row repeated down the 512 rows: entry `(p, q)` is the tile's `(0, 0, q)`, whatever `p`. -/
theorem bias_tile_apply (x2 : Vec Ideal S1x1x512 .f32) (p q : Fin 512) :
    broadcastTo S512x512 (shapeCast S1x512 x2 shapeCasts_S1x1x512_S1x512) broadcasts_S1x512_S512x512 (ix2 p q)
      = x2 (ix3 0 0 q) := by
  rw [broadcastTo_apply _ broadcasts_S1x512_S512x512 (ix2 p q) (ix2 0 q) (fun a => by
    match a with
    | ⟨0, _⟩ => show (0 : Nat) = if (1 : Nat) = 1 then 0 else p.val; rw [if_pos rfl]
    | ⟨1, _⟩ => show q.val = if (512 : Nat) = 1 then 0 else q.val; rw [if_neg (by decide)])]
  refine shapeCast_apply x2 _ (ix2 0 q) (ix3 0 0 q) ?_
  rw [Shape.rowMajor_val_three, Shape.rowMajor_val_two]
  show ((0 : Nat) * 1 + 0) * 512 + q.val = 0 * 512 + q.val
  omega

/-- The stored `[1, 512, 512]` value is the `[512, 512]` one with a unit axis in front: its `(0, p, q)` is that
    one's `(p, q)`. -/
theorem out_tile_apply (v : FVec Ideal S512x512 .f32) (p q : Fin 512) :
    shapeCast S1x512x512 v shapeCasts_S512x512_S1x512x512 (ix3 0 p q) = v (ix2 p q) := by
  refine shapeCast_apply v _ (ix3 0 p q) (ix2 p q) ?_
  rw [Shape.rowMajor_val_three, Shape.rowMajor_val_two]
  show p.val * 512 + q.val = ((0 : Nat) * 512 + p.val) * 512 + q.val
  omega

/-- The matrix product into a zero accumulator, at `(p, q)`: the sum over the contracted axis of length 2048 of the
    left matrix's row `p` times the right matrix's column `q`. -/
theorem tile_matmul_apply (a : FVec Ideal S512x2048 .bf16) (b : FVec Ideal S2048x512 .bf16) (p q : Fin 512) :
    matmul dot_S512x2048_S2048x512_S512x512_1_0_0_1_n_n none a b (constant (F := Ideal) S512x512 .f32 0x00000000#32) (ix2 p q)
      = ∑ k : Fin 2048, a (ix2 p k) * b (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k :=
    funext fun c => Fin.ext (by
      match c with
      | ⟨0, _⟩ =>
        show (dot_S512x2048_S2048x512_S512x512_1_0_0_1_n_n.lhsIdx (ix2 p q) _ 0).val = p.val
        unfold DotDims.lhsIdx
        rw [dif_neg (show ¬(0 : Fin S512x2048.rank) ∈ dot_S512x2048_S2048x512_S512x512_1_0_0_1_n_n.lhsBatch by decide),
          dif_pos (show (0 : Fin S512x2048.rank) ∈ dot_S512x2048_S2048x512_S512x512_1_0_0_1_n_n.lhsNonContracting by decide)]
        rfl
      | ⟨1, _⟩ => exact (dot_S512x2048_S2048x512_S512x512_1_0_0_1_n_n.lhsIdx_val_of_single rfl _ _).trans hk)
  have er : dot_S512x2048_S2048x512_S512x512_1_0_0_1_n_n.rhsIdx (ix2 p q) ((contrEquiv1 dot_S512x2048_S2048x512_S512x512_1_0_0_1_n_n 2048 rfl rfl).symm k) = ix2 k q :=
    funext fun c => Fin.ext (by
      match c with
      | ⟨0, _⟩ => exact (dot_S512x2048_S2048x512_S512x512_1_0_0_1_n_n.rhsIdx_val_of_single rfl _ _).trans hk
      | ⟨1, _⟩ =>
        show (dot_S512x2048_S2048x512_S512x512_1_0_0_1_n_n.rhsIdx (ix2 p q) _ 1).val = q.val
        unfold DotDims.rhsIdx
        rw [dif_neg (show ¬(1 : Fin S2048x512.rank) ∈ dot_S512x2048_S2048x512_S512x512_1_0_0_1_n_n.rhsBatch by decide),
          dif_pos (show (1 : Fin S2048x512.rank) ∈ dot_S512x2048_S2048x512_S512x512_1_0_0_1_n_n.rhsNonContracting by decide)]
        rfl)
  rw [el, er]

/-- The logistic operation on a vector, at an index, is the logistic function of the entry. -/
theorem logistic_apply {s : Shape} {φ : FTy} (a : FVec Ideal s φ) (i : s.Idx) : logistic a i = Ideal.logistic (a i) := rfl

/-- THE TILE: the body's stored value at `(0, p, q)` is SiLU of the tile's inner product plus the tile's bias. -/
theorem payload_apply (x0 : Vec Ideal S1x512x2048 .f32) (x1 : Vec Ideal S1x2048x512 .f32) (x2 : Vec Ideal S1x1x512 .f32)
    (p q : Fin 512) :
    k0_pay1 (F := Ideal) x0 x1 x2 (ix3 0 p q)
      = silu ((∑ k : Fin 2048, x0 (ix3 0 p k) * x1 (ix3 0 k q)) + x2 (ix3 0 0 q)) := by
  unfold k0_pay1
  rw [out_tile_apply]
  simp only [mulf_apply, addf_apply, logistic_apply]
  rw [tile_matmul_apply, bias_tile_apply]
  have hterm : ∀ k : Fin 2048,
      ((truncf (F := Ideal) .bf16 (shapeCast S512x2048 x0 shapeCasts_S1x512x2048_S512x2048) bitsLt_bf16_f32 (ix2 p k) : EReal)
        * (truncf (F := Ideal) .bf16 (shapeCast S2048x512 x1 shapeCasts_S1x2048x512_S2048x512) bitsLt_bf16_f32 (ix2 k q) : EReal) : EReal)
      = (x0 (ix3 0 p k) : EReal) * (x1 (ix3 0 k q) : EReal) := fun k => by
    rw [truncf_apply, truncf_apply, lhs_tile_apply, rhs_tile_apply]
  rw [Finset.sum_congr rfl fun k _ => hterm k]
  rfl

/-- An index of a `[1, 512, 512]` tile is `(0, p, q)`: its first coordinate ranges over one value. -/
theorem eq_tile_ix (y : S1x512x512.Idx) :
    y = ix3 (0 : Fin 1) (⟨(y 1).val, (y 1).isLt⟩ : Fin 512) (⟨(y 2).val, (y 2).isLt⟩ : Fin 512) := by
  funext a
  match a with
  | ⟨0, _⟩ => exact Fin.ext (by have h : (y 0).val < 1 := (y 0).isLt; show (y 0).val = 0; omega)
  | ⟨1, _⟩ => rfl
  | ⟨2, _⟩ => rfl

/-- THE TILE IS A TILE OF THE RESULT. Let the three input tiles be the pieces of `X`, `W` and `B` at block coordinates
    `(E, M, ·)`, `(E, ·, N)` and `(E, N)`: rows `512·M …` of expert `E` of `X` over the whole contraction axis, columns
    `512·N …` of expert `E` of `W` over the whole contraction axis, and entries `512·N …` of row `E` of `B`. Then the
    stored value at `y` is the result at `(E, 512·M + y₁, 512·N + y₂)`: the inner product runs over the SAME 2048 terms,
    because the contraction axis is not tiled. -/
theorem tile_entry
    (X : S8x4096x2048.Idx → EReal) (W : S8x2048x8192.Idx → EReal) (B : S8x8192.Idx → EReal)
    (x0 : Vec Ideal S1x512x2048 .f32) (x1 : Vec Ideal S1x2048x512 .f32) (x2 : Vec Ideal S1x1x512 .f32)
    (E M N : Nat) (hE : E < 8) (hM : M < 8) (hN : N < 16)
    (hx0 : ∀ (p : Fin 512) (k : Fin 2048),
      x0 (ix3 0 p k) = X (ix3 ⟨E, hE⟩ ⟨M * 512 + p.val, by have := p.isLt; omega⟩ k))
    (hx1 : ∀ (k : Fin 2048) (q : Fin 512),
      x1 (ix3 0 k q) = W (ix3 ⟨E, hE⟩ k ⟨N * 512 + q.val, by have := q.isLt; omega⟩))
    (hx2 : ∀ q : Fin 512, x2 (ix3 0 0 q) = B (ix2 ⟨E, hE⟩ ⟨N * 512 + q.val, by have := q.isLt; omega⟩))
    (y : S1x512x512.Idx) (i : S8x4096x8192.Idx)
    (hi0 : (i 0).val = E) (hi1 : (i 1).val = M * 512 + (y 1).val) (hi2 : (i 2).val = N * 512 + (y 2).val) :
    k0_pay1 (F := Ideal) x0 x1 x2 y = result X W B i := by
  have h1 : (y 1).val < 512 := (y 1).isLt
  have h2 : (y 2).val < 512 := (y 2).isLt
  refine (congrArg (k0_pay1 (F := Ideal) x0 x1 x2) (eq_tile_ix y)).trans
    ((payload_apply x0 x1 x2 ⟨(y 1).val, h1⟩ ⟨(y 2).val, h2⟩).trans ?_)
  have hsum : (∑ k : Fin 2048, x0 (ix3 0 (⟨(y 1).val, h1⟩ : Fin 512) k) * x1 (ix3 0 k (⟨(y 2).val, h2⟩ : Fin 512)))
      = ∑ k : Fin 2048, X (ix3 ⟨E, hE⟩ ⟨M * 512 + (y 1).val, by omega⟩ k) * W (ix3 ⟨E, hE⟩ k ⟨N * 512 + (y 2).val, by omega⟩) :=
    Finset.sum_congr rfl fun k _ => by rw [hx0, hx1]
  rw [hsum, hx2]
  have e0 : (i 0 : Fin 8) = ⟨E, hE⟩ := Fin.ext hi0
  have e1 : (i 1 : Fin 4096) = ⟨M * 512 + (y 1).val, by omega⟩ := Fin.ext hi1
  have e2 : (i 2 : Fin 8192) = ⟨N * 512 + (y 2).val, by omega⟩ := Fin.ext hi2
  show _ = silu (preact X W B (i 0) (i 1) (i 2))
  rw [e0, e1, e2]
  rfl

end Cert.KernelIdeal.Tile

end
-- ==== Proof.TilesToArray.lean ====
/-
  From tiles to the array.

  Every grid point writes its `[1, 512, 512]` tile back to the output array at block `(e, M, N)`. By the tile lemma the
  tile written at point `t` is exactly block `t` of the specification's result array; every index `(e, r, n)` of the
  output lies in the block of the point `128·e + 16·(r / 512) + n / 512`; so after the run the output array IS the
  specification's result array.
-/
import proofs.«141067_j14851996909966_2_alg».proof.Proof.Gen.KernelIdeal.Value
import proofs.«141067_j14851996909966_2_alg».proof.Proof.GridPoints
import proofs.«141067_j14851996909966_2_alg».proof.Proof.TileReads
import proofs.«141067_j14851996909966_2_alg».proof.Proof.TileGemmSilu
import Idealize.ShloMosaic.Lib.Pipeline.Value

noncomputable section

namespace Cert.KernelIdeal.Tiles

open Cert.KernelIdeal Cert.KernelIdeal.Gen Cert.KernelIdeal.Grid Cert.KernelIdeal.Reads Cert.GemmSilu
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The specification's result array of the arguments as launched, on core `c`. -/
abbrev spec (c : Dev nD) : S8x4096x8192.Idx → EReal :=
  result (m ((c : Thread nD τ).loc main_arg0)) (m ((c : Thread nD τ).loc main_arg1)) (m ((c : Thread nD τ).loc main_arg2))

/-- WHAT POINT `t` WRITES BACK is block `t` of the specification's result array. -/
theorem flushed_eq (c : Dev nD) (t : Fin cfg0.N) :
    (dats m 0 c).flushed 3 t = ((cfg0.win 3).blk t).view.read (Elt Ideal) (spec m c) := by
  rw [Cert.KernelIdeal.Value.flushed3]
  unfold out0_3
  rw [View.canon_unit_zero hz3]
  simp only [View.ld_unit_zero (S := S1x512x2048) hz3, View.ld_unit_zero (S := S1x2048x512) hz3,
    View.ld_unit_zero (S := S1x1x512) hz3]
  obtain ⟨o0, o1, o2, -⟩ := idx_facts t
  have ht := lt_N t
  funext j
  have hj0 : (j 0).val < 1 := (j 0).isLt
  show k0_pay1 (F := Ideal) (iblk m c 0 t) (iblk m c 1 t) (iblk m c 2 t) j = spec m c (((cfg0.win 3).blk t).view.emb j)
  exact Tile.tile_entry (m ((c : Thread nD τ).loc main_arg0)) (m ((c : Thread nD τ).loc main_arg1)) (m ((c : Thread nD τ).loc main_arg2))
    (iblk m c 0 t) (iblk m c 1 t) (iblk m c 2 t)
    (t.val / 128) (t.val / 16 % 8) (t.val % 16) (by omega) (by omega) (by omega)
    (fun p k => xtile_apply m c t p k) (fun k q => wtile_apply m c t k q) (fun q => btile_apply m c t q)
    j (((cfg0.win 3).blk t).view.emb j)
    (show win0_3.index t (0 : Fin 3) * 1 + 1 * (j 0).val = t.val / 128 by omega)
    (show win0_3.index t (1 : Fin 3) * 512 + 1 * (j 1).val = t.val / 16 % 8 * 512 + (j 1).val by omega)
    (show win0_3.index t (2 : Fin 3) * 512 + 1 * (j 2).val = t.val % 16 * 512 + (j 2).val by omega)

/-- An index of the output array is in point `t`'s block iff each coordinate is in the block's range on its axis. -/
theorem mem_blk (t : Fin cfg0.N) (i : S8x4096x8192.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v1).slice (win0_3.rect t)).set ↔ _
  rw [View.set_slice_whole, Rect.mem_set_unit]
  exact Iff.rfl

/-- Every index `(e, r, n)` of the output array is in the block of the point `128·e + 16·(r / 512) + n / 512`. -/
theorem cover (i : S8x4096x8192.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 8192 := (i 2).isLt
  have hlt : (i 0).val * 128 + (i 1).val / 512 * 16 + (i 2).val / 512 < cfg0.N := by
    rw [show cfg0.N = 1024 from N_0]; omega
  obtain ⟨o0, o1, o2, -⟩ := idx_facts ⟨(i 0).val * 128 + (i 1).val / 512 * 16 + (i 2).val / 512, hlt⟩
  refine ⟨⟨(i 0).val * 128 + (i 1).val / 512 * 16 + (i 2).val / 512, hlt⟩, flush0_3 _, ?_⟩
  rw [mem_blk]
  intro a
  match a with
  | ⟨0, _⟩ =>
    show win0_3.index ⟨_, hlt⟩ (0 : Fin 3) * 1 ≤ (i 0).val ∧ (i 0).val < win0_3.index ⟨_, hlt⟩ (0 : Fin 3) * 1 + 1
    simp only [] at o0
    omega
  | ⟨1, _⟩ =>
    show win0_3.index ⟨_, hlt⟩ (1 : Fin 3) * 512 ≤ (i 1).val ∧ (i 1).val < win0_3.index ⟨_, hlt⟩ (1 : Fin 3) * 512 + 512
    simp only [] at o1
    omega
  | ⟨2, _⟩ =>
    show win0_3.index ⟨_, hlt⟩ (2 : Fin 3) * 512 ≤ (i 2).val ∧ (i 2).val < win0_3.index ⟨_, hlt⟩ (2 : Fin 3) * 512 + 512
    simp only [] at o2
    omega

/-- THE OUTPUT ARRAY after the run is the specification's result array. -/
theorem final (c : Dev nD) : (dats m 0 c).arrAt 3 cfg0.N = spec m c :=
  (dats m 0 c).arrAt_eq_of_cover 3 (spec m c) (fun t _ => flushed_eq m c t) cover

/-- The kernel's run, read: the result array at the specification's, the arguments unchanged. -/
theorem run : θ_run defs (onTc (τ := τ) (main (F := Ideal))) ⟨m, fun _ => 0, ρ⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Tiles

end
-- ==== Proof.lean ====
/-
  A grouped matrix product with bias and SiLU, tiled, against the same computation in one piece.

  For 8 experts the kernel computes `silu (x[e] · w[e] + b[e])` with `x[e] : 4096 × 2048`, `w[e] : 2048 × 8192` and the
  bias row `b[e]` added to every row, on an `8 × 8 × 16` grid of `512 × 512` output tiles; each tile takes the WHOLE
  contraction axis of length 2048, so no inner product is split. The reference is one batched product over all experts,
  the bias broadcast, and SiLU spelt `v · (1 / (1 + exp (-v)))`.

  Over the extended reals both are the same expression entry by entry,
      out[e, r, n] = silu (∑ₖ x[e, r, k] · w[e, k, n] + b[e, n]),        silu v = v · 1 / (1 + e^(-v)),
  with the sum over the same 2048 terms in both programs: the kernel's narrowing of its operands is the identity there,
  its matrix product into a zero accumulator is the plain sum, and its logistic operation is the function the reference
  spells out. No algebraic law is used beyond `0 + s = s`, so the finiteness of the inputs is not needed for the values.

  The parts: `GemmSilu` states the expression; `RefGemmSilu` reads the reference's program as it; `TileGemmSilu` reads
  one tile of the kernel's body as a tile of it; `GridPoints` and `TileReads` say which tiles of the arguments each grid
  point is handed; `TilesToArray` puts the written tiles together into the whole array. The three frames are the
  generated ones (the reference's is its run with the result dropped); the idealization rewrote nothing, so there is
  nothing to preserve.
-/
import proofs.«141067_j14851996909966_2_alg».proof.Defs
import proofs.«141067_j14851996909966_2_alg».proof.Proof.Gen.Kernel
import proofs.«141067_j14851996909966_2_alg».proof.Proof.Gen.Kernel.Skeleton
import proofs.«141067_j14851996909966_2_alg».proof.Proof.Gen.Kernel.Launch
import proofs.«141067_j14851996909966_2_alg».proof.Proof.Gen.Kernel.Points
import proofs.«141067_j14851996909966_2_alg».proof.Proof.Gen.Kernel.Frame
import proofs.«141067_j14851996909966_2_alg».proof.Proof.Gen.KernelIdeal
import proofs.«141067_j14851996909966_2_alg».proof.Proof.Gen.KernelIdeal.Skeleton
import proofs.«141067_j14851996909966_2_alg».proof.Proof.Gen.KernelIdeal.Launch
import proofs.«141067_j14851996909966_2_alg».proof.Proof.Gen.KernelIdeal.Points
import proofs.«141067_j14851996909966_2_alg».proof.Proof.Gen.KernelIdeal.Frame
import proofs.«141067_j14851996909966_2_alg».proof.Proof.Gen.ReferenceIdeal
import proofs.«141067_j14851996909966_2_alg».proof.Proof.Gen.KernelIdeal.Value
import proofs.«141067_j14851996909966_2_alg».proof.Proof.Gen.ReferenceIdeal.Run
import proofs.«141067_j14851996909966_2_alg».proof.Proof.Gen.ReferenceIdeal.Read
import proofs.«141067_j14851996909966_2_alg».proof.Proof.Gen.Pre_finite_inputs
import proofs.«141067_j14851996909966_2_alg».proof.Proof.GemmSilu
import proofs.«141067_j14851996909966_2_alg».proof.Proof.RefGemmSilu
import proofs.«141067_j14851996909966_2_alg».proof.Proof.TilesToArray
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on `x`, `w` and `b`, both programs end with the result array
    `silu (∑ₖ x[e, r, k] · w[e, k, n] + b[e, n])`: the kernel tile by tile, the reference in one piece. -/
theorem algebraic : Cert.algebraic_KernelIdeal_ReferenceIdeal := by
  intro m ρ m' ρ' _ hagree
  refine ⟨fun c => Cert.KernelIdeal.Tiles.spec m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.IsGemmSilu.stage_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
